-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024x3072 : Shape := ⟨2, ![1024, 3072]⟩
abbrev S1x512x1024 : Shape := ⟨3, ![1, 512, 1024]⟩
abbrev S512x1024 : Shape := ⟨2, ![512, 1024]⟩
abbrev S512x3072 : Shape := ⟨2, ![512, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x3072, .f32⟩
  | .hbm, ⟨6, _⟩ => ⟨S1024x3072, .bf16⟩
  | .hbm, ⟨7, _⟩ => ⟨S1024x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .bf16 = 32 ∨ (Rect.block (s := S4x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S4x2048x1024 : S_.BroadcastsInDim S4x2048x1024 (![] : Fin 0 → Fin S4x2048x1024.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsQkvBody.lean ====
/-
  The projection region of `Kernel`, one grid point at a time. A point (b, i) of the 4 × 4 grid is handed the
  512 rows x[b, 512·i .. 512·i+511, :] and the whole 1024 × 3072 matrix [Wq | Wk | Wv]; its body forms their product
  once, a 512 × 3072 block, and stores its three column thirds as that point's rows of q, k and v. This module says
  what each of the three output buffers holds after the body, as a function of the two input blocks alone, proves
  the body's triple (it runs to the end, faults nowhere, leaves the inputs' buffers as found), and packs both as the
  region's proof data at ANY contents `V` of the core's buffers when the region is entered.
-/
import proofs.«170138_j25941602468044_2_alg».proof.Proof.Gen.Kernel.Launch
import proofs.«170138_j25941602468044_2_alg».proof.Proof.Gen.Kernel.Skeleton
import proofs.«170138_j25941602468044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: their buffer holds the point's block whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is fetched once; its buffer holds the same whole block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0

/-! ## What the body leaves in each output buffer -/

/-- The q rows: columns 0 … 1023 of the product. -/
def out0_2 (x0 : Vec F S1x512x1024 .f32) (x1 : Vec F S1024x3072 .bf16) : Vec F S1x512x1024 .bf16 :=
  View.canon [⟨r0_x, k0_pay2 (View.ld x0 r0_x) (View.ld x1 r0_w)⟩]
/-- The k rows: columns 1024 … 2047 of the product. -/
def out0_3 (x0 : Vec F S1x512x1024 .f32) (x1 : Vec F S1024x3072 .bf16) : Vec F S1x512x1024 .bf16 :=
  View.canon [⟨r0_x, k0_pay3 (View.ld x0 r0_x) (View.ld x1 r0_w)⟩]
/-- The v rows: columns 2048 … 3071 of the product. -/
def out0_4 (x0 : Vec F S1x512x1024 .f32) (x1 : Vec F S1024x3072 .bf16) : Vec F S1x512x1024 .bf16 :=
  View.canon [⟨r0_x, k0_pay4 (View.ld x0 r0_x) (View.ld x1 r0_w)⟩]

/-- One store of the whole buffer covers it. -/
theorem cover0 (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-! ## The body's triple -/

set_option maxHeartbeats 1000000 in
/-- On whole staging buffers — the two inputs' at contents `x0`, `x1`, the three outputs' at anything — the body runs to
    the continuation with the inputs' as they were and the outputs' at the three column thirds of the product. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole)
    (x0 : Vec F S1x512x1024 .f32) (x1 : Vec F S1024x3072 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The region's proof data -/

/-- The arrays as the region finds them; after the body at point `t` each input's buffer at its block and each output's at
    its third of the product of the two input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAttnBody.lean ====
/-
  The attention region of `Kernel`, one grid point at a time. A point (b, i) of the 4 × 8 grid is handed 256 rows of
  q[b], the whole of k[b] and v[b] (2048 rows each) and the whole 1024 × 1024 output matrix; its body forms the
  256 × 2048 scores q·kᵀ, each row's maximum, the exponentials of the scores less that maximum, each row's sum of
  them, the quotients, their product with v[b], that product scaled by 1/32, and its product with the output matrix,
  and stores the 256 × 1024 result as that point's rows of the output. This module says what the output buffer holds
  after the body as a function of the four input blocks alone, proves the body's triple, and packs both as the
  region's proof data at ANY contents `V` of the core's buffers when the region is entered.
-/
import proofs.«170138_j25941602468044_2_alg».proof.Proof.Gen.Kernel.Launch
import proofs.«170138_j25941602468044_2_alg».proof.Proof.Gen.Kernel.Skeleton
import proofs.«170138_j25941602468044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of q: their buffer holds the point's block whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- k of the batch is fetched when the batch changes; between, its buffer still holds that batch's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- v of the batch, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output matrix is fetched once; its buffer holds the same whole block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_q : Rect S1x256x1024 := Rect.unit (s := S1x256x1024) ![0, 0, 0] S1x256x1024.size inb_S1x256x1024_S1x256x1024_0_0_0
abbrev r1_kv : Rect S1x2048x1024 := Rect.unit (s := S1x2048x1024) ![0, 0, 0] S1x2048x1024.size inb_S1x2048x1024_S1x2048x1024_0_0_0
abbrev r1_w : Rect S1024x1024 := Rect.unit (s := S1024x1024) ![0, 0] S1024x1024.size inb_S1024x1024_S1024x1024_0_0

/-! ## What the body leaves in the output buffer -/

/-- The 256 output rows of the point, from its four input blocks. -/
def out1_4 (x0 : Vec F S1x256x1024 .bf16) (x1 : Vec F S1x2048x1024 .bf16) (x2 : Vec F S1x2048x1024 .bf16) (x3 : Vec F S1024x1024 .bf16) : Vec F S1x256x1024 .f32 :=
  View.canon [⟨r1_q, k1_pay1 (View.ld x0 r1_q) (View.ld x1 r1_kv) (View.ld x2 r1_kv) (View.ld x3 r1_w)⟩]

/-- One store of the whole buffer covers it. -/
theorem cover1 (p0 : Vec F S1x256x1024 .f32) (y : S1x256x1024.Idx) :
    ∃ pc ∈ ([⟨r1_q, p0⟩] : List (View.Piece (Elt F) S1x256x1024 .f32)), y ∈ pc.1.set :=
  View.cover_of_tiled [⟨r1_q, p0⟩] S1x256x1024.size (by rfl) y

/-! ## The body's triple -/

set_option maxHeartbeats 1000000 in
/-- On whole staging buffers — the four inputs' at contents `x0` … `x3`, the output's at anything — the body runs to the
    continuation with the inputs' as they were and the output's at the attention rows of the four. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x256x1024 .f32) (harg6 : arg6.IsWhole)
    (x0 : Vec F S1x256x1024 .bf16) (x1 : Vec F S1x2048x1024 .bf16) (x2 : Vec F S1x2048x1024 .bf16) (x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The region's proof data -/

/-- The arrays as the region finds them; after the body at point `t` each input's buffer at its block and the output's at
    the attention rows of the four input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run of `Kernel`: three packed weight conversions on the host, then the projection region, then the
  attention region. The core's buffer contents are followed through the four boundaries of that sequence — at launch;
  after the host operations; after the projection region, whose three output arrays hold what its sixteen points wrote
  back and every other buffer what it held before; after the attention region, likewise with its one output array —
  and every weakly fair execution is shown to end, without a fault, with the result array at the attention region's
  written-back contents and each of the five argument arrays as launched: no host operation writes an argument, and a
  region changes only its output arrays.
-/
import proofs.«170138_j25941602468044_2_alg».proof.Proof.BitsQkvBody
import proofs.«170138_j25941602468044_2_alg».proof.Proof.BitsAttnBody
import proofs.«170138_j25941602468044_2_alg».proof.Proof.Gen.Kernel.Regions
import Idealize.ShloMosaic.Lib.StableHlo.Run

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the host operations: the projection region's entry. -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- After the projection region: its arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the core's references: the attention region's entry. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the attention region: its arrays at what its write-backs leave, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- A buffer no host operation writes holds after them what it held before. -/
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl

/-! ## The proof data family and the thread state -/

/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- The host operations as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tend (c : Dev nD) : sProp 𝕄 := iprop(StableHlo.held (c : Thread nD τ) (Pipeline.ucRefs τ sig) (B3 m ρ c) ∗ ∃ r, prngReg c r)

/-! ## The regions as segments -/

-- a library lemma stated over the pinned configuration unifies with the printed one only when unification may unfold
-- plain definitions in a metavariable's type
set_option backward.isDefEq.respectTransparency.types false in
/-- The projection region, entered from every unscoped buffer at the contents after the host operations and left at those
    with its three output arrays written back. -/
def regQkv : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention region, entered from there and left with its output array written back. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev allSegs : List (Pipeline.Seg (pcfgs (F := F)) adm (pdats m ρ) () defs₀ 𝒱₀ L lv) :=
  [ .host (hostSeg m ρ), .region (regQkv m ρ), .region (regAttn m ρ) ]
theorem main_run (c : Dev nD) : main (F := F) c = Pipeline.Seg.run (allSegs m ρ) := (main_chain c).trans (by chain_rfl)

set_option backward.isDefEq.respectTransparency.types false in
/-- Every weakly fair execution from memory `m` with zero counters terminates, nothing faulting, with the result array at
    what the attention region's thirty-two points wrote back and the five argument arrays as launched. -/
theorem run_named : θ_run defs (onTc (τ := τ) (main (F := F))) ⟨m, fun _ => 0, ρ⟩ (fun r => ∀ c : Dev nD,
      r.2.mem ((c.tc : Thread nD τ).loc main_v4) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v4 (by decide))).trans (B3_arr m ρ c 4),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c),
       (h c _ (mem_uc main_arg3 (by decide))).trans (B3_main_arg3 m ρ c),
       (h c _ (mem_uc main_arg4 (by decide))).trans (B3_main_arg4 m ρ c)⟩)

/-- The frame: that run with the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Hand

end
-- ==== Proof.IdealQkvBody.lean ====
/-
  The projection region of `KernelIdeal`, one grid point at a time. A point (b, i) of the 4 × 4 grid is handed the
  512 rows x[b, 512·i .. 512·i+511, :] and the whole 1024 × 3072 matrix [Wq | Wk | Wv]; its body forms their product
  once, a 512 × 3072 block, and stores its three column thirds as that point's rows of q, k and v. This module says
  what each of the three output buffers holds after the body, as a function of the two input blocks alone, proves
  the body's triple (it runs to the end, faults nowhere, leaves the inputs' buffers as found), and packs both as the
  region's proof data at ANY contents `V` of the core's buffers when the region is entered.
-/
import proofs.«170138_j25941602468044_2_alg».proof.Proof.Gen.KernelIdeal.Launch
import proofs.«170138_j25941602468044_2_alg».proof.Proof.Gen.KernelIdeal.Skeleton
import proofs.«170138_j25941602468044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: their buffer holds the point's block whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is fetched once; its buffer holds the same whole block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1x512x1024 := Rect.unit (s := S1x512x1024) ![0, 0, 0] S1x512x1024.size inb_S1x512x1024_S1x512x1024_0_0_0
abbrev r0_w : Rect S1024x3072 := Rect.unit (s := S1024x3072) ![0, 0] S1024x3072.size inb_S1024x3072_S1024x3072_0_0

/-! ## What the body leaves in each output buffer -/

/-- The q rows: columns 0 … 1023 of the product. -/
def out0_2 (x0 : Vec F S1x512x1024 .f32) (x1 : Vec F S1024x3072 .bf16) : Vec F S1x512x1024 .bf16 :=
  View.canon [⟨r0_x, k0_pay2 (View.ld x0 r0_x) (View.ld x1 r0_w)⟩]
/-- The k rows: columns 1024 … 2047 of the product. -/
def out0_3 (x0 : Vec F S1x512x1024 .f32) (x1 : Vec F S1024x3072 .bf16) : Vec F S1x512x1024 .bf16 :=
  View.canon [⟨r0_x, k0_pay3 (View.ld x0 r0_x) (View.ld x1 r0_w)⟩]
/-- The v rows: columns 2048 … 3071 of the product. -/
def out0_4 (x0 : Vec F S1x512x1024 .f32) (x1 : Vec F S1024x3072 .bf16) : Vec F S1x512x1024 .bf16 :=
  View.canon [⟨r0_x, k0_pay4 (View.ld x0 r0_x) (View.ld x1 r0_w)⟩]

/-- One store of the whole buffer covers it. -/
theorem cover0 (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-! ## The body's triple -/

set_option maxHeartbeats 1000000 in
/-- On whole staging buffers — the two inputs' at contents `x0`, `x1`, the three outputs' at anything — the body runs to
    the continuation with the inputs' as they were and the outputs' at the three column thirds of the product. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole)
    (x0 : Vec F S1x512x1024 .f32) (x1 : Vec F S1024x3072 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The region's proof data -/

/-- The arrays as the region finds them; after the body at point `t` each input's buffer at its block and each output's at
    its third of the product of the two input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealAttnBody.lean ====
/-
  The attention region of `KernelIdeal`, one grid point at a time. A point (b, i) of the 4 × 8 grid is handed 256 rows of
  q[b], the whole of k[b] and v[b] (2048 rows each) and the whole 1024 × 1024 output matrix; its body forms the
  256 × 2048 scores q·kᵀ, each row's maximum, the exponentials of the scores less that maximum, each row's sum of
  them, the quotients, their product with v[b], that product scaled by 1/32, and its product with the output matrix,
  and stores the 256 × 1024 result as that point's rows of the output. This module says what the output buffer holds
  after the body as a function of the four input blocks alone, proves the body's triple, and packs both as the
  region's proof data at ANY contents `V` of the core's buffers when the region is entered.
-/
import proofs.«170138_j25941602468044_2_alg».proof.Proof.Gen.KernelIdeal.Launch
import proofs.«170138_j25941602468044_2_alg».proof.Proof.Gen.KernelIdeal.Skeleton
import proofs.«170138_j25941602468044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of q: their buffer holds the point's block whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- k of the batch is fetched when the batch changes; between, its buffer still holds that batch's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- v of the batch, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output matrix is fetched once; its buffer holds the same whole block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_q : Rect S1x256x1024 := Rect.unit (s := S1x256x1024) ![0, 0, 0] S1x256x1024.size inb_S1x256x1024_S1x256x1024_0_0_0
abbrev r1_kv : Rect S1x2048x1024 := Rect.unit (s := S1x2048x1024) ![0, 0, 0] S1x2048x1024.size inb_S1x2048x1024_S1x2048x1024_0_0_0
abbrev r1_w : Rect S1024x1024 := Rect.unit (s := S1024x1024) ![0, 0] S1024x1024.size inb_S1024x1024_S1024x1024_0_0

/-! ## What the body leaves in the output buffer -/

/-- The 256 output rows of the point, from its four input blocks. -/
def out1_4 (x0 : Vec F S1x256x1024 .bf16) (x1 : Vec F S1x2048x1024 .bf16) (x2 : Vec F S1x2048x1024 .bf16) (x3 : Vec F S1024x1024 .bf16) : Vec F S1x256x1024 .f32 :=
  View.canon [⟨r1_q, k1_pay1 (View.ld x0 r1_q) (View.ld x1 r1_kv) (View.ld x2 r1_kv) (View.ld x3 r1_w)⟩]

/-- One store of the whole buffer covers it. -/
theorem cover1 (p0 : Vec F S1x256x1024 .f32) (y : S1x256x1024.Idx) :
    ∃ pc ∈ ([⟨r1_q, p0⟩] : List (View.Piece (Elt F) S1x256x1024 .f32)), y ∈ pc.1.set :=
  View.cover_of_tiled [⟨r1_q, p0⟩] S1x256x1024.size (by rfl) y

/-! ## The body's triple -/

set_option maxHeartbeats 1000000 in
/-- On whole staging buffers — the four inputs' at contents `x0` … `x3`, the output's at anything — the body runs to the
    continuation with the inputs' as they were and the output's at the attention rows of the four. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x256x1024 .f32) (harg6 : arg6.IsWhole)
    (x0 : Vec F S1x256x1024 .bf16) (x1 : Vec F S1x2048x1024 .bf16) (x2 : Vec F S1x2048x1024 .bf16) (x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The region's proof data -/

/-- The arrays as the region finds them; after the body at point `t` each input's buffer at its block and the output's at
    the attention rows of the four input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole run of `KernelIdeal`: three packed weight conversions on the host, then the projection region, then the
  attention region. The core's buffer contents are followed through the four boundaries of that sequence — at launch;
  after the host operations; after the projection region, whose three output arrays hold what its sixteen points wrote
  back and every other buffer what it held before; after the attention region, likewise with its one output array —
  and every weakly fair execution is shown to end, without a fault, with the result array at the attention region's
  written-back contents and each of the five argument arrays as launched: no host operation writes an argument, and a
  region changes only its output arrays.
-/
import proofs.«170138_j25941602468044_2_alg».proof.Proof.IdealQkvBody
import proofs.«170138_j25941602468044_2_alg».proof.Proof.IdealAttnBody
import proofs.«170138_j25941602468044_2_alg».proof.Proof.Gen.KernelIdeal.Regions
import Idealize.ShloMosaic.Lib.StableHlo.Run

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the host operations: the projection region's entry. -/
abbrev B1 : Dev nD → Valuation τ sig (Elt F) := fun c => StableHlo.after hostOps0 (B0 m ρ c)
/-- The same read at the core's references. -/
abbrev E1 : (c : Dev nD) → (b : Ref sig .tc) → Buf (Elt F) ((c : Thread nD τ).loc b) := fun c b => B1 m ρ c b
/-- After the projection region: its arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the core's references: the attention region's entry. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After the attention region: its arrays at what its write-backs leave, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- A buffer no host operation writes holds after them what it held before. -/
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl

/-! ## The proof data family and the thread state -/

/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- The host operations as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tend (c : Dev nD) : sProp 𝕄 := iprop(StableHlo.held (c : Thread nD τ) (Pipeline.ucRefs τ sig) (B3 m ρ c) ∗ ∃ r, prngReg c r)

/-! ## The regions as segments -/

-- a library lemma stated over the pinned configuration unifies with the printed one only when unification may unfold
-- plain definitions in a metavariable's type
set_option backward.isDefEq.respectTransparency.types false in
/-- The projection region, entered from every unscoped buffer at the contents after the host operations and left at those
    with its three output arrays written back. -/
def regQkv : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention region, entered from there and left with its output array written back. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev allSegs : List (Pipeline.Seg (pcfgs (F := F)) adm (pdats m ρ) () defs₀ 𝒱₀ L lv) :=
  [ .host (hostSeg m ρ), .region (regQkv m ρ), .region (regAttn m ρ) ]
theorem main_run (c : Dev nD) : main (F := F) c = Pipeline.Seg.run (allSegs m ρ) := (main_chain c).trans (by chain_rfl)

set_option backward.isDefEq.respectTransparency.types false in
/-- Every weakly fair execution from memory `m` with zero counters terminates, nothing faulting, with the result array at
    what the attention region's thirty-two points wrote back and the five argument arrays as launched. -/
theorem run_named : θ_run defs (onTc (τ := τ) (main (F := F))) ⟨m, fun _ => 0, ρ⟩ (fun r => ∀ c : Dev nD,
      r.2.mem ((c.tc : Thread nD τ).loc main_v4) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v4 (by decide))).trans (B3_arr m ρ c 4),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c),
       (h c _ (mem_uc main_arg3 (by decide))).trans (B3_main_arg3 m ρ c),
       (h c _ (mem_uc main_arg4 (by decide))).trans (B3_main_arg4 m ρ c)⟩)

/-- The frame: that run with the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Hand

end
-- ==== Proof.LibConcatThree.lean ====
/-
  Three equal pieces laid side by side.

  Three `[m, n]` arrays concatenated along axis 1 into an `[m, N]` array read, at `(p, j)`, the first piece at `(p, j)` when
  `j` is one of its `n` columns, the second at `(p, j - n)` when `j` is one of the next `n`, and the third at
  `(p, j - 2n)` otherwise: the piece whose span of columns holds `j`, at `j` less the columns before that span.
-/
import Idealize.ShloMosaic.Lib.Pipeline.Value
import Idealize.ShloMosaic.Lib.ValueIdx

namespace Cert.LibConcatThree

open Idealize.ShloMosaic Idealize.ShloMosaic.ValueIdx

variable {α : Type}

/-- Off the concatenated axis the piece's index has the whole array's coordinates. -/
private theorem off_axis {m n N : ℕ} (p : Fin m) (q : Fin n) (j : Fin N)
    (hr : (⟨2, ![m, n]⟩ : Shape).rank = (⟨2, ![m, N]⟩ : Shape).rank) :
    ∀ b : Fin (⟨2, ![m, n]⟩ : Shape).rank, b.cast hr ≠ (1 : Fin 2) → ((ix2 p q : (⟨2, ![m, n]⟩ : Shape).Idx) b).val = ((ix2 p j : (⟨2, ![m, N]⟩ : Shape).Idx) (b.cast hr)).val := by
  intro b hb
  match b with
  | ⟨0, _⟩ => rfl
  | ⟨1, _⟩ => exact absurd rfl hb

/-- A column of the first piece. -/
theorem concat3_cols_first {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = q.val) :
    concatenate ⟨2, ![m, N]⟩ (1 : Fin 2) [⟨⟨2, ![m, n]⟩, W0⟩, ⟨⟨2, ![m, n]⟩, W1⟩, ⟨⟨2, ![m, n]⟩, W2⟩] hc (ix2 p j) = W0 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 0 (by simp) ⟨2, ![m, n]⟩ W0 rfl rfl 0 (by simp) (ix2 p q)
    (off_axis p q j rfl) (by show 0 + q.val = j.val; omega)

/-- A column of the second piece. -/
theorem concat3_cols_second {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W1 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 1 (by simp) ⟨2, ![m, n]⟩ W1 rfl rfl n (by simp) (ix2 p q)
    (off_axis p q j rfl) (by show n + q.val = j.val; omega)

/-- A column of the third piece. -/
theorem concat3_cols_third {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W2 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 2 (by simp) ⟨2, ![m, n]⟩ W2 rfl rfl (n + n) (by simp) (ix2 p q)
    (off_axis p q j rfl) (by show n + n + q.val = j.val; omega)

end Cert.LibConcatThree
-- ==== Proof.IdealEntry.lean ====
/-
  What the projection region finds on entry. The host operations before it leave the rows of x as launched, write the
  1024 × 3072 matrix [Wq | Wk | Wv] (the three weight matrices side by side, changed to the narrower float format)
  and the output matrix changed likewise. At the exact reading a change of format is the identity, so entry (c, j) of
  the packed matrix is Wq(c, j), Wk(c, j - 1024) or Wv(c, j - 2048) by the third j falls in, and the packed output
  matrix is Wo.
-/
import proofs.«170138_j25941602468044_2_alg».proof.Proof.IdealRun
import proofs.«170138_j25941602468044_2_alg».proof.Proof.LibConcatThree
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section AnyValues

variable (m : (ℓ : Loc nD τ sig) → Buf (Elt F) ℓ) (ρ : Dev nD → PrngReg)

/-- No host operation writes the rows of x. -/
theorem E1_rows (c : Dev nD) : E1 m ρ c main_arg0 = m ((c : Thread nD τ).loc main_arg0) :=
  (B1_of m ρ c main_arg0 (by decide)).trans rfl

/-- The packed weights: the three matrices side by side, in the narrower format. -/
theorem E1_packed (c : Dev nD) : E1 m ρ c main_v1
    = truncf .bf16 (concatenate S1024x3072 1 [⟨S1024x1024, m ((c : Thread nD τ).loc main_arg1)⟩, ⟨S1024x1024, m ((c : Thread nD τ).loc main_arg2)⟩, ⟨S1024x1024, m ((c : Thread nD τ).loc main_arg3)⟩] concatenates_S1024x1024_S1024x1024_S1024x1024_S1024x3072_d1) bitsLt_bf16_f32 := by
  show StableHlo.after hostOps0 (B0 m ρ c) (Proc.devRef .tc main_v1) = _
  after_results
  rfl

/-- The output matrix in the narrower format. -/
theorem E1_outw (c : Dev nD) : E1 m ρ c main_v2 = truncf .bf16 (m ((c : Thread nD τ).loc main_arg4)) bitsLt_bf16_f32 := by
  show StableHlo.after hostOps0 (B0 m ρ c) (Proc.devRef .tc main_v2) = _
  after_results

end AnyValues

section Exact

variable (m : (ℓ : Loc nD τ sig) → Buf (Elt Ideal) ℓ) (ρ : Dev nD → PrngReg)

/-- Column h of the packed matrix's first third is column h of Wq. -/
theorem E1_packed_q (c : Dev nD) (a h : Fin 1024) :
    E1 m ρ c main_v1 (ix2 a (⟨h.val, by omega⟩ : Fin 3072)) = m ((c : Thread nD τ).loc main_arg1) (ix2 a h) := by
  rw [E1_packed]
  refine (truncf_apply (ψ := .bf16) _ bitsLt_bf16_f32 _).trans ?_
  exact Cert.LibConcatThree.concat3_cols_first _ _ _ concatenates_S1024x1024_S1024x1024_S1024x1024_S1024x3072_d1 a h _ rfl

/-- Column h of its second third is column h of Wk. -/
theorem E1_packed_k (c : Dev nD) (a h : Fin 1024) :
    E1 m ρ c main_v1 (ix2 a (⟨1024 + h.val, by omega⟩ : Fin 3072)) = m ((c : Thread nD τ).loc main_arg2) (ix2 a h) := by
  rw [E1_packed]
  refine (truncf_apply (ψ := .bf16) _ bitsLt_bf16_f32 _).trans ?_
  exact Cert.LibConcatThree.concat3_cols_second _ _ _ concatenates_S1024x1024_S1024x1024_S1024x1024_S1024x3072_d1 a h _ rfl

/-- Column h of its last third is column h of Wv. -/
theorem E1_packed_v (c : Dev nD) (a h : Fin 1024) :
    E1 m ρ c main_v1 (ix2 a (⟨2048 + h.val, by omega⟩ : Fin 3072)) = m ((c : Thread nD τ).loc main_arg3) (ix2 a h) := by
  rw [E1_packed]
  refine (truncf_apply (ψ := .bf16) _ bitsLt_bf16_f32 _).trans ?_
  exact Cert.LibConcatThree.concat3_cols_third _ _ _ concatenates_S1024x1024_S1024x1024_S1024x1024_S1024x3072_d1 a h _ rfl

/-- The packed output matrix is Wo, entry by entry. -/
theorem E1_outw_apply (c : Dev nD) (i : S1024x1024.Idx) :
    E1 m ρ c main_v2 i = m ((c : Thread nD τ).loc main_arg4) i := by
  rw [E1_outw]; rfl

end Exact

end Cert.KernelIdeal.Hand

end
-- ==== Proof.AttnSpec.lean ====
/-
  Single-head attention with the scale applied after the value product, on the extended reals, as ONE function of the
  five argument arrays. For rows x (4 batches of 2048 rows of 1024 entries) and four 1024 × 1024 matrices:

    q, k, v  =  x·Wq, x·Wk, x·Wv            (per batch and row, a sum over the 1024 input features)
    s[b,i,j] =  Σ_h q[b,i,h] · k[b,j,h]      (scores of row i against every row j of the same batch)
    t[b,i]   =  the largest score of row i   (the fold of max from -∞ over j)
    w[b,i,j] =  exp(s[b,i,j] - t[b,i]) / Σ_j' exp(s[b,i,j'] - t[b,i])
    a[b,i,h] =  Σ_j w[b,i,j] · v[b,j,h]
    out[b,i,d] = Σ_h (a[b,i,h] · 1/32) · Wo[h,d]

  Both programs compute exactly this arrangement of sums, so no law of the extended reals beyond the definitions is
  needed to join them; the constants stay as their binary words (the same word on both sides is never evaluated).
-/
import Idealize.ShloMosaic.PureOps.Ideal
import Idealize.ShloMosaic.Lib.ValueIdx
import Mathlib.Data.Finset.Fold

noncomputable section

namespace Cert.Attention

open Idealize.ShloMosaic Idealize.ShloMosaic.ValueIdx

/-- 4 batches of 2048 rows of 1024 entries. -/
abbrev Rows : Type := (⟨3, ![4, 2048, 1024]⟩ : Shape).Idx → EReal
/-- A 1024 × 1024 matrix, stored [in, out]. -/
abbrev Mat : Type := (⟨2, ![1024, 1024]⟩ : Shape).Idx → EReal

/-- A projection: row (b, i) of x times column h of W. -/
def proj (x : Rows) (W : Mat) (b : Fin 4) (i : Fin 2048) (h : Fin 1024) : EReal :=
  ∑ c : Fin 1024, x (ix3 b i c) * W (ix2 c h)

/-- The score of row i against row j of batch b. -/
def score (q k : Fin 4 → Fin 2048 → Fin 1024 → EReal) (b : Fin 4) (i j : Fin 2048) : EReal :=
  ∑ h : Fin 1024, q b i h * k b j h

/-- Row i's largest score: the fold of max from -∞ over the 2048 columns. -/
def top (s : Fin 4 → Fin 2048 → Fin 2048 → EReal) (b : Fin 4) (i : Fin 2048) : EReal :=
  (Finset.univ : Finset (Fin 2048)).fold max (Ideal.ofBits .f32 0xFF800000#32) (fun j => s b i j)

/-- The exponential of a score less its row's largest. -/
def lift (s : Fin 4 → Fin 2048 → Fin 2048 → EReal) (b : Fin 4) (i j : Fin 2048) : EReal :=
  Ideal.exp (s b i j - top s b i)

/-- Row i's sum of those exponentials. -/
def mass (s : Fin 4 → Fin 2048 → Fin 2048 → EReal) (b : Fin 4) (i : Fin 2048) : EReal :=
  ∑ j : Fin 2048, lift s b i j

/-- The softmax weight of column j in row i. -/
def weight (s : Fin 4 → Fin 2048 → Fin 2048 → EReal) (b : Fin 4) (i j : Fin 2048) : EReal :=
  Ideal.div (lift s b i j) (mass s b i)

/-- The weighted mix of the value rows. -/
def mix (w : Fin 4 → Fin 2048 → Fin 2048 → EReal) (v : Fin 4 → Fin 2048 → Fin 1024 → EReal) (b : Fin 4) (i : Fin 2048) (h : Fin 1024) : EReal :=
  ∑ j : Fin 2048, w b i j * v b j h

/-- The mix of given q, k, v rows, scaled by 1/32 and sent through the output matrix. -/
def attend (q k v : Fin 4 → Fin 2048 → Fin 1024 → EReal) (Wo : Mat) (b : Fin 4) (i : Fin 2048) (d : Fin 1024) : EReal :=
  ∑ h : Fin 1024, (mix (weight (score q k)) v b i h * Ideal.ofBits .f32 0x3D000000#32) * Wo (ix2 h d)

/-- The whole function, entry (b, i, d). -/
def out (x : Rows) (Wq Wk Wv Wo : Mat) (b : Fin 4) (i : Fin 2048) (d : Fin 1024) : EReal :=
  attend (proj x Wq) (proj x Wk) (proj x Wv) Wo b i d

/-- The whole function, as an array. -/
def G (x : Rows) (Wq Wk Wv Wo : Mat) : Rows := fun y => out x Wq Wk Wv Wo (y 0) (y 1) (y 2)

theorem G_apply (x : Rows) (Wq Wk Wv Wo : Mat) (b : Fin 4) (i : Fin 2048) (d : Fin 1024) :
    G x Wq Wk Wv Wo (ix3 b i d) = out x Wq Wk Wv Wo b i d := rfl

/-- A fold of max from `c` is at least `c`, so taking the max with `c` once more changes nothing. -/
theorem max_fold_max {ι : Type*} (S : Finset ι) (c : EReal) (f : ι → EReal) : max c (S.fold max c f) = S.fold max c f :=
  max_eq_right ((Finset.le_fold_max c).mpr (Or.inl le_rfl))

end Cert.Attention

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.IdealPayloadProj.lean ====
/-
  The projection kernel's three stored values read at an entry, at the exact (extended-real) values.

  The body multiplies its 512 × 1024 block of rows by the whole 1024 × 3072 matrix (the three projection matrices side
  by side) and stores the product's three column thirds. A change of format is the identity and the casts between
  1 × 512 × 1024 and 512 × 1024 keep every entry, so entry (p, h) of the third that starts at column o is
  ∑ c, block(p, c) · matrix(c, o + h): the specification's projection once the block's row p is a row of x and the
  third's columns are a matrix W.
-/
import proofs.«170138_j25941602468044_2_alg».proof.Proof.Gen.KernelIdeal.Skeleton
import proofs.«170138_j25941602468044_2_alg».proof.Proof.AttnSpec
import proofs.«170138_j25941602468044_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The product at (p, n): the sum over the 1024 input features of the block's row p against the matrix's column n. -/
theorem pay1_apply (v0 : Vec Ideal S1x512x1024 .f32) (v3 : Vec Ideal S1024x3072 .bf16) (p : Fin 512) (n : Fin 3072) :
    k0_pay1 (F := Ideal) v0 v3 (ix2 p n) = ∑ c : Fin 1024, v0 (ix3 (0 : Fin 1) p c) * v3 (ix2 c n) := by
  unfold k0_pay1
  refine (matmul_plain_zero_apply (m := 512) (k := 1024) (n := 3072) none _ _ p n).trans ?_
  refine Finset.sum_congr rfl fun c _ => ?_
  rw [truncf_apply, shapeCast_1ab_ab_apply, shapeCast_self]

/-- Entry (p, h) of the third that starts at column o. -/
theorem third_apply (o : Nat) (v0 : Vec Ideal S1x512x1024 .f32) (v3 : Vec Ideal S1024x3072 .bf16)
    (hs : S512x3072.Slices ![0, o] S512x1024) (p : Fin 512) (h : Fin 1024) (n : Fin 3072) (hn : n.val = o + h.val) :
    (shapeCast S1x512x1024 (truncf (F := Ideal) .bf16 (extractStridedSlice S512x1024 ![0, o] (k0_pay1 (F := Ideal) v0 v3) hs) bitsLt_bf16_f32)
        shapeCasts_S512x1024_S1x512x1024 : FVec Ideal S1x512x1024 .bf16) (ix3 (0 : Fin 1) p h)
      = ∑ c : Fin 1024, v0 (ix3 (0 : Fin 1) p c) * v3 (ix2 c n) := by
  rw [shapeCast_ab_1ab_apply, truncf_apply, slice2_axis1_apply o _ hs p h n hn, pay1_apply]

/-- The first third (columns 0 … 1023) is the projection by the matrix those columns hold. -/
theorem pay_q (v0 : Vec Ideal S1x512x1024 .f32) (v3 : Vec Ideal S1024x3072 .bf16) (x : Cert.Attention.Rows) (W : Cert.Attention.Mat)
    (b : Fin 4) (r : Fin 2048) (p : Fin 512)
    (hx : ∀ c : Fin 1024, v0 (ix3 (0 : Fin 1) p c) = x (ix3 b r c))
    (hW : ∀ (c h : Fin 1024), v3 (ix2 c (⟨h.val, by omega⟩ : Fin 3072)) = W (ix2 c h)) (h : Fin 1024) :
    k0_pay2 (F := Ideal) v0 v3 (ix3 (0 : Fin 1) p h) = Cert.Attention.proj x W b r h := by
  unfold k0_pay2 Cert.Attention.proj
  refine (third_apply 0 v0 v3 _ p h ⟨h.val, by omega⟩ (Nat.zero_add _).symm).trans ?_
  exact Finset.sum_congr rfl fun c _ => by rw [hx c, hW c h]

/-- The second third (columns 1024 … 2047). -/
theorem pay_k (v0 : Vec Ideal S1x512x1024 .f32) (v3 : Vec Ideal S1024x3072 .bf16) (x : Cert.Attention.Rows) (W : Cert.Attention.Mat)
    (b : Fin 4) (r : Fin 2048) (p : Fin 512)
    (hx : ∀ c : Fin 1024, v0 (ix3 (0 : Fin 1) p c) = x (ix3 b r c))
    (hW : ∀ (c h : Fin 1024), v3 (ix2 c (⟨1024 + h.val, by omega⟩ : Fin 3072)) = W (ix2 c h)) (h : Fin 1024) :
    k0_pay3 (F := Ideal) v0 v3 (ix3 (0 : Fin 1) p h) = Cert.Attention.proj x W b r h := by
  unfold k0_pay3 Cert.Attention.proj
  refine (third_apply 1024 v0 v3 _ p h ⟨1024 + h.val, by omega⟩ rfl).trans ?_
  exact Finset.sum_congr rfl fun c _ => by rw [hx c, hW c h]

/-- The last third (columns 2048 … 3071). -/
theorem pay_v (v0 : Vec Ideal S1x512x1024 .f32) (v3 : Vec Ideal S1024x3072 .bf16) (x : Cert.Attention.Rows) (W : Cert.Attention.Mat)
    (b : Fin 4) (r : Fin 2048) (p : Fin 512)
    (hx : ∀ c : Fin 1024, v0 (ix3 (0 : Fin 1) p c) = x (ix3 b r c))
    (hW : ∀ (c h : Fin 1024), v3 (ix2 c (⟨2048 + h.val, by omega⟩ : Fin 3072)) = W (ix2 c h)) (h : Fin 1024) :
    k0_pay4 (F := Ideal) v0 v3 (ix3 (0 : Fin 1) p h) = Cert.Attention.proj x W b r h := by
  unfold k0_pay4 Cert.Attention.proj
  refine (third_apply 2048 v0 v3 _ p h ⟨2048 + h.val, by omega⟩ rfl).trans ?_
  exact Finset.sum_congr rfl fun c _ => by rw [hx c, hW c h]

end Cert.KernelIdeal.Payload

end
-- ==== Proof.IdealQkvValue.lean ====
/-
  What the projection region leaves. Point t of its 4 × 4 grid is batch t / 4 and the 512 rows starting at 512·(t % 4);
  it writes back, into each of the three output arrays, that block of rows of the product of x with one column third of
  the packed matrix. The sixteen blocks tile each array, so each array ends holding one whole-array function of the
  region's entry contents: the projection of the rows of x by Wq, by Wk and by Wv. Stated for ANY entry contents
  with those rows and those three thirds.
-/
import proofs.«170138_j25941602468044_2_alg».proof.Proof.IdealQkvBody
import proofs.«170138_j25941602468044_2_alg».proof.Proof.AttnSpec
import proofs.«170138_j25941602468044_2_alg».proof.Proof.IdealPayloadProj
import Idealize.ShloMosaic.Lib.Pipeline.Value
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The projection of rows by a matrix, as an array: entry (b, r, h) is row (b, r) times column h. -/
abbrev projArr (X : Cert.Attention.Rows) (W : Cert.Attention.Mat) : S4x2048x1024.Idx → EReal :=
  fun i => Cert.Attention.proj X W (i 0) (i 1) (i 2)

/-- The printed index maps over the 4 × 4 grid: point t is batch t / 4, row block t % 4, for the rows of x and for each
    of the three outputs; the weights' block never moves. -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The sixteen blocks tile each output array -/

/-- An index of the query array is in point `t`'s block iff each coordinate is in the block's range on its axis. -/
theorem mem_blk_q (t : Fin cfg0.N) (i : S4x2048x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v3_0).slice (win0_2.rect t)).set ↔ _
  rw [View.set_slice_whole, Rect.mem_set_unit]
  exact Iff.rfl

/-- Every index of the query array is in the block of the point (batch, row / 512). -/
theorem cover_q (i : S4x2048x1024.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  let t : Fin cfg0.N := ⟨(i 0).val * 4 + (i 1).val / 512, by rw [show cfg0.N = 16 from N_0]; omega⟩
  obtain ⟨e00, e01, e02, e10, e11, e20, e21, e22, e30, e31, e32, e40, e41, e42⟩ := idx0 t
  have tv : t.val = (i 0).val * 4 + (i 1).val / 512 := rfl
  refine ⟨t, flush0_2 t, ?_⟩
  rw [mem_blk_q]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- An index of the key array is in point `t`'s block iff each coordinate is in the block's range on its axis. -/
theorem mem_blk_k (t : Fin cfg0.N) (i : S4x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v3_1).slice (win0_3.rect t)).set ↔ _
  rw [View.set_slice_whole, Rect.mem_set_unit]
  exact Iff.rfl

/-- Every index of the key array is in the block of the point (batch, row / 512). -/
theorem cover_k (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  let t : Fin cfg0.N := ⟨(i 0).val * 4 + (i 1).val / 512, by rw [show cfg0.N = 16 from N_0]; omega⟩
  obtain ⟨e00, e01, e02, e10, e11, e20, e21, e22, e30, e31, e32, e40, e41, e42⟩ := idx0 t
  have tv : t.val = (i 0).val * 4 + (i 1).val / 512 := rfl
  refine ⟨t, flush0_3 t, ?_⟩
  rw [mem_blk_k]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- An index of the value array is in point `t`'s block iff each coordinate is in the block's range on its axis. -/
theorem mem_blk_v (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_2).slice (win0_4.rect t)).set ↔ _
  rw [View.set_slice_whole, Rect.mem_set_unit]
  exact Iff.rfl

/-- Every index of the value array is in the block of the point (batch, row / 512). -/
theorem cover_v (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  let t : Fin cfg0.N := ⟨(i 0).val * 4 + (i 1).val / 512, by rw [show cfg0.N = 16 from N_0]; omega⟩
  obtain ⟨e00, e01, e02, e10, e11, e20, e21, e22, e30, e31, e32, e40, e41, e42⟩ := idx0 t
  have tv : t.val = (i 0).val * 4 + (i 1).val / 512 := rfl
  refine ⟨t, flush0_4 t, ?_⟩
  rw [mem_blk_v]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

section

-- ANY entry contents whose rows, on core `c`, are `X` and whose packed matrix has `Wq`, `Wk`, `Wv` as its column thirds
variable (V : (c : Dev nD) → (b : Ref sig .tc) → Buf (Elt Ideal) ((c : Thread nD τ).loc b))
variable (c : Dev nD) (X : Cert.Attention.Rows) (Wq Wk Wv : Cert.Attention.Mat)
variable (hX : V c main_arg0 = X)
variable (hWq : ∀ (a h : Fin 1024), V c main_v1 (ix2 a (⟨h.val, by omega⟩ : Fin 3072)) = Wq (ix2 a h))
variable (hWk : ∀ (a h : Fin 1024), V c main_v1 (ix2 a (⟨1024 + h.val, by omega⟩ : Fin 3072)) = Wk (ix2 a h))
variable (hWv : ∀ (a h : Fin 1024), V c main_v1 (ix2 a (⟨2048 + h.val, by omega⟩ : Fin 3072)) = Wv (ix2 a h))
include hX hWq hWk hWv

/-! ## The query rows (output window 2) -/

/-- WHAT POINT `t` WRITES BACK is its block of the projection of the rows by the query matrix. -/
theorem flushed_q (t : Fin cfg0.N) :
    (dat0 V c).flushed 2 t = ((cfg0.win 2).blk t).view.read (Elt Ideal) (projArr X Wq) := by
  show (cfg0.win 2).cut (grid0.coords t) ((dat0 V c).after 2 t) = _
  rw [after0_2]
  unfold out0_2
  rw [View.canon_unit_zero hz3]
  simp only [View.ld_unit_zero (S := S1x512x1024) hz3, View.ld_unit_zero (S := S1024x3072) hz2]
  obtain ⟨e00, e01, e02, e10, e11, e20, e21, e22, e30, e31, e32, e40, e41, e42⟩ := idx0 t
  have ht : t.val < 16 := lt_of_lt_of_eq t.isLt N_0
  funext j
  obtain ⟨u, p, h, rfl⟩ : ∃ (u : Fin 1) (p : Fin 512) (h : Fin 1024), j = ix3 u p h := ⟨j 0, j 1, j 2, eq_ix3 j⟩
  obtain rfl : u = 0 := Subsingleton.elim _ _
  refine (Cert.KernelIdeal.Payload.pay_q _ _ X Wq (⟨t.val / 4, by omega⟩ : Fin 4) (⟨t.val % 4 * 512 + p.val, by omega⟩ : Fin 2048) p ?_ ?_ h).trans ?_
  · intro a
    show V c main_arg0 (((cfg0.win 0).blk t).view.emb (ix3 (0 : Fin 1) p a)) = X _
    rw [hX]
    refine congrArg X ?_
    funext ax; apply Fin.ext
    match ax with
    | ⟨0, _⟩ => show win0_0.index t (0 : Fin 3) * 1 + 1 * 0 = t.val / 4; omega
    | ⟨1, _⟩ => show win0_0.index t (1 : Fin 3) * 512 + 1 * p.val = t.val % 4 * 512 + p.val; omega
    | ⟨2, _⟩ => show win0_0.index t (2 : Fin 3) * 1024 + 1 * a.val = a.val; omega
  · intro a g
    show V c main_v1 (((cfg0.win 1).blk t).view.emb (ix2 a (⟨g.val, by omega⟩ : Fin 3072))) = Wq (ix2 a g)
    rw [← hWq a g]
    refine congrArg (V c main_v1) ?_
    funext ax; apply Fin.ext
    match ax with
    | ⟨0, _⟩ => show win0_1.index t (0 : Fin 2) * 1024 + 1 * a.val = a.val; omega
    | ⟨1, _⟩ => show win0_1.index t (1 : Fin 2) * 3072 + 1 * (g.val) = g.val; omega
  · show projArr X Wq (ix3 (⟨t.val / 4, by omega⟩ : Fin 4) (⟨t.val % 4 * 512 + p.val, by omega⟩ : Fin 2048) h) = projArr X Wq (((cfg0.win 2).blk t).view.emb (ix3 (0 : Fin 1) p h))
    refine congrArg (projArr X Wq) ?_
    funext ax; apply Fin.ext
    match ax with
    | ⟨0, _⟩ => show t.val / 4 = win0_2.index t (0 : Fin 3) * 1 + 1 * 0; omega
    | ⟨1, _⟩ => show t.val % 4 * 512 + p.val = win0_2.index t (1 : Fin 3) * 512 + 1 * p.val; omega
    | ⟨2, _⟩ => show h.val = win0_2.index t (2 : Fin 3) * 1024 + 1 * h.val; omega

/-- THE ARRAY after the region: the projection of the rows by the query matrix. -/
theorem final_q : (dat0 V c).arrAt 2 cfg0.N = projArr X Wq :=
  (dat0 V c).arrAt_eq_of_cover 2 (projArr X Wq) (fun t _ => flushed_q V c X Wq Wk Wv hX hWq hWk hWv t) cover_q

/-! ## The key rows (output window 3) -/

/-- WHAT POINT `t` WRITES BACK is its block of the projection of the rows by the key matrix. -/
theorem flushed_k (t : Fin cfg0.N) :
    (dat0 V c).flushed 3 t = ((cfg0.win 3).blk t).view.read (Elt Ideal) (projArr X Wk) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x3072) hz2]
  obtain ⟨e00, e01, e02, e10, e11, e20, e21, e22, e30, e31, e32, e40, e41, e42⟩ := idx0 t
  have ht : t.val < 16 := lt_of_lt_of_eq t.isLt N_0
  funext j
  obtain ⟨u, p, h, rfl⟩ : ∃ (u : Fin 1) (p : Fin 512) (h : Fin 1024), j = ix3 u p h := ⟨j 0, j 1, j 2, eq_ix3 j⟩
  obtain rfl : u = 0 := Subsingleton.elim _ _
  refine (Cert.KernelIdeal.Payload.pay_k _ _ X Wk (⟨t.val / 4, by omega⟩ : Fin 4) (⟨t.val % 4 * 512 + p.val, by omega⟩ : Fin 2048) p ?_ ?_ h).trans ?_
  · intro a
    show V c main_arg0 (((cfg0.win 0).blk t).view.emb (ix3 (0 : Fin 1) p a)) = X _
    rw [hX]
    refine congrArg X ?_
    funext ax; apply Fin.ext
    match ax with
    | ⟨0, _⟩ => show win0_0.index t (0 : Fin 3) * 1 + 1 * 0 = t.val / 4; omega
    | ⟨1, _⟩ => show win0_0.index t (1 : Fin 3) * 512 + 1 * p.val = t.val % 4 * 512 + p.val; omega
    | ⟨2, _⟩ => show win0_0.index t (2 : Fin 3) * 1024 + 1 * a.val = a.val; omega
  · intro a g
    show V c main_v1 (((cfg0.win 1).blk t).view.emb (ix2 a (⟨1024 + g.val, by omega⟩ : Fin 3072))) = Wk (ix2 a g)
    rw [← hWk a g]
    refine congrArg (V c main_v1) ?_
    funext ax; apply Fin.ext
    match ax with
    | ⟨0, _⟩ => show win0_1.index t (0 : Fin 2) * 1024 + 1 * a.val = a.val; omega
    | ⟨1, _⟩ => show win0_1.index t (1 : Fin 2) * 3072 + 1 * (1024 + g.val) = 1024 + g.val; omega
  · show projArr X Wk (ix3 (⟨t.val / 4, by omega⟩ : Fin 4) (⟨t.val % 4 * 512 + p.val, by omega⟩ : Fin 2048) h) = projArr X Wk (((cfg0.win 3).blk t).view.emb (ix3 (0 : Fin 1) p h))
    refine congrArg (projArr X Wk) ?_
    funext ax; apply Fin.ext
    match ax with
    | ⟨0, _⟩ => show t.val / 4 = win0_3.index t (0 : Fin 3) * 1 + 1 * 0; omega
    | ⟨1, _⟩ => show t.val % 4 * 512 + p.val = win0_3.index t (1 : Fin 3) * 512 + 1 * p.val; omega
    | ⟨2, _⟩ => show h.val = win0_3.index t (2 : Fin 3) * 1024 + 1 * h.val; omega

/-- THE ARRAY after the region: the projection of the rows by the key matrix. -/
theorem final_k : (dat0 V c).arrAt 3 cfg0.N = projArr X Wk :=
  (dat0 V c).arrAt_eq_of_cover 3 (projArr X Wk) (fun t _ => flushed_k V c X Wq Wk Wv hX hWq hWk hWv t) cover_k

/-! ## The value rows (output window 4) -/

/-- WHAT POINT `t` WRITES BACK is its block of the projection of the rows by the value matrix. -/
theorem flushed_v (t : Fin cfg0.N) :
    (dat0 V c).flushed 4 t = ((cfg0.win 4).blk t).view.read (Elt Ideal) (projArr X Wv) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x3072) hz2]
  obtain ⟨e00, e01, e02, e10, e11, e20, e21, e22, e30, e31, e32, e40, e41, e42⟩ := idx0 t
  have ht : t.val < 16 := lt_of_lt_of_eq t.isLt N_0
  funext j
  obtain ⟨u, p, h, rfl⟩ : ∃ (u : Fin 1) (p : Fin 512) (h : Fin 1024), j = ix3 u p h := ⟨j 0, j 1, j 2, eq_ix3 j⟩
  obtain rfl : u = 0 := Subsingleton.elim _ _
  refine (Cert.KernelIdeal.Payload.pay_v _ _ X Wv (⟨t.val / 4, by omega⟩ : Fin 4) (⟨t.val % 4 * 512 + p.val, by omega⟩ : Fin 2048) p ?_ ?_ h).trans ?_
  · intro a
    show V c main_arg0 (((cfg0.win 0).blk t).view.emb (ix3 (0 : Fin 1) p a)) = X _
    rw [hX]
    refine congrArg X ?_
    funext ax; apply Fin.ext
    match ax with
    | ⟨0, _⟩ => show win0_0.index t (0 : Fin 3) * 1 + 1 * 0 = t.val / 4; omega
    | ⟨1, _⟩ => show win0_0.index t (1 : Fin 3) * 512 + 1 * p.val = t.val % 4 * 512 + p.val; omega
    | ⟨2, _⟩ => show win0_0.index t (2 : Fin 3) * 1024 + 1 * a.val = a.val; omega
  · intro a g
    show V c main_v1 (((cfg0.win 1).blk t).view.emb (ix2 a (⟨2048 + g.val, by omega⟩ : Fin 3072))) = Wv (ix2 a g)
    rw [← hWv a g]
    refine congrArg (V c main_v1) ?_
    funext ax; apply Fin.ext
    match ax with
    | ⟨0, _⟩ => show win0_1.index t (0 : Fin 2) * 1024 + 1 * a.val = a.val; omega
    | ⟨1, _⟩ => show win0_1.index t (1 : Fin 2) * 3072 + 1 * (2048 + g.val) = 2048 + g.val; omega
  · show projArr X Wv (ix3 (⟨t.val / 4, by omega⟩ : Fin 4) (⟨t.val % 4 * 512 + p.val, by omega⟩ : Fin 2048) h) = projArr X Wv (((cfg0.win 4).blk t).view.emb (ix3 (0 : Fin 1) p h))
    refine congrArg (projArr X Wv) ?_
    funext ax; apply Fin.ext
    match ax with
    | ⟨0, _⟩ => show t.val / 4 = win0_4.index t (0 : Fin 3) * 1 + 1 * 0; omega
    | ⟨1, _⟩ => show t.val % 4 * 512 + p.val = win0_4.index t (1 : Fin 3) * 512 + 1 * p.val; omega
    | ⟨2, _⟩ => show h.val = win0_4.index t (2 : Fin 3) * 1024 + 1 * h.val; omega

/-- THE ARRAY after the region: the projection of the rows by the value matrix. -/
theorem final_v : (dat0 V c).arrAt 4 cfg0.N = projArr X Wv :=
  (dat0 V c).arrAt_eq_of_cover 4 (projArr X Wv) (fun t _ => flushed_v V c X Wq Wk Wv hX hWq hWk hWv t) cover_v

end

end Cert.KernelIdeal.Hand

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.IdealPayloadAttn.lean ====
/-
  The attention kernel's stored value read at an entry, at the exact (extended-real) values.

  The body takes a 256-row block of q, all 2048 rows of k and of v of the same batch, and the output matrix. It forms
  the 256 × 2048 scores q·kᵀ, subtracts each row's largest score, exponentiates, divides by each row's sum, multiplies
  by v, scales by the constant 1/32 and multiplies by the output matrix. Every step is read at explicit coordinates:
  the products as sums over the contracted coordinate, the row maximum as the fold of max over the row's 2048 columns,
  the row sum as the sum over them; a change of format and the casts that add or drop a unit axis keep every entry.
  Put together, entry (p, d) is the specification's `attend` at the row of q the block's row p holds.
-/
import proofs.«170138_j25941602468044_2_alg».proof.Proof.Gen.KernelIdeal.Skeleton
import proofs.«170138_j25941602468044_2_alg».proof.Proof.AttnSpec
import proofs.«170138_j25941602468044_2_alg».proof.Proof.LibPlainMatmul
import proofs.«170138_j25941602468044_2_alg».proof.Proof.LibColumnCast
import proofs.«170138_j25941602468044_2_alg».proof.Proof.LibColumnBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The pieces of the body, named -/

/-- The scores: the block of q times the transpose of k, into zero. -/
def scores (v0 : Vec Ideal S1x256x1024 .bf16) (v2 : Vec Ideal S1x2048x1024 .bf16) : FVec Ideal S256x2048 .f32 :=
  matmul dot_S256x1024_S1024x2048_S256x2048_1_0_0_1_n_n none
    (shapeCast S256x1024 v0 shapeCasts_S1x256x1024_S256x1024 : FVec Ideal S256x1024 .bf16)
    (transpose S1024x2048 [1, 0] (shapeCast S2048x1024 v2 shapeCasts_S1x2048x1024_S2048x1024 : FVec Ideal S2048x1024 .bf16)
      transposes_S2048x1024_p1_0_S1024x2048 : FVec Ideal S1024x2048 .bf16)
    (constant S256x2048 .f32 0x00000000#32)

/-- Each row's largest entry (from -∞), repeated along the row. -/
def rowMax (s : FVec Ideal S256x2048 .f32) : FVec Ideal S256x2048 .f32 :=
  broadcastTo S256x2048
    (shapeCast S256x1 (multiReduction .maximumf [1] S256 s 0xFF800000#32 reduces_S256x2048_S256 (.inl rfl) rfl : FVec Ideal S256 .f32)
      shapeCasts_S256_S256x1 : FVec Ideal S256x1 .f32)
    broadcasts_S256x1_S256x2048

/-- Each row's sum (from 0), repeated along the row. -/
def rowSum (e : FVec Ideal S256x2048 .f32) : FVec Ideal S256x2048 .f32 :=
  broadcastTo S256x2048
    (shapeCast S256x1 (multiReduction .add [1] S256 e 0x00000000#32 reduces_S256x2048_S256 (.inl rfl) rfl : FVec Ideal S256 .f32)
      shapeCasts_S256_S256x1 : FVec Ideal S256x1 .f32)
    broadcasts_S256x1_S256x2048

/-- The exponentials of the entries less their row's largest. -/
def shifted (s : FVec Ideal S256x2048 .f32) : FVec Ideal S256x2048 .f32 := exp (subf s (rowMax s))

/-- The softmax weights of a block of scores. -/
def weights (s : FVec Ideal S256x2048 .f32) : FVec Ideal S256x2048 .bf16 :=
  truncf .bf16 (divf (shifted s) (rowSum (shifted s))) bitsLt_bf16_f32

/-- The body's stored value is these pieces put together: the definitions unfold to the same term. -/
theorem k1_pay1_eq (v0 : Vec Ideal S1x256x1024 .bf16) (v2 v4 : Vec Ideal S1x2048x1024 .bf16) (v22 : Vec Ideal S1024x1024 .bf16) :
    k1_pay1 (F := Ideal) v0 v2 v4 v22
      = shapeCast S1x256x1024
          (matmul dot_S256x1024_S1024x1024_S256x1024_1_0_0_1_n_n none
            (truncf .bf16
              (mulf
                (matmul dot_S256x2048_S2048x1024_S256x1024_1_0_0_1_n_n none (weights (scores v0 v2))
                  (shapeCast S2048x1024 v4 shapeCasts_S1x2048x1024_S2048x1024 : FVec Ideal S2048x1024 .bf16)
                  (constant S256x1024 .f32 0x00000000#32) : FVec Ideal S256x1024 .f32)
                (broadcast S256x1024 (Scalar.ofBits (F := Ideal) .f32 0x3D000000#32)))
              bitsLt_bf16_f32 : FVec Ideal S256x1024 .bf16)
            (shapeCast S1024x1024 v22 shapeCasts_S1024x1024_S1024x1024 : FVec Ideal S1024x1024 .bf16)
            (constant S256x1024 .f32 0x00000000#32) : FVec Ideal S256x1024 .f32)
          shapeCasts_S256x1024_S1x256x1024 := rfl

/-! ## Each piece at an entry -/

/-- Row p's index with the column k inserted is (p, k). -/
theorem lift_row (p : Fin 256) (k : Fin 2048) : reduces_S256x2048_S256.lift (ix1 p) k = ix2 p k := by
  funext c; apply Fin.ext
  match c with
  | ⟨0, _⟩ => rfl
  | ⟨1, _⟩ => rfl

/-- The score of the block's row p against row j of k: the sum over the 1024 features. -/
theorem scores_apply (v0 : Vec Ideal S1x256x1024 .bf16) (v2 : Vec Ideal S1x2048x1024 .bf16) (p : Fin 256) (j : Fin 2048) :
    scores v0 v2 (ix2 p j) = ∑ h : Fin 1024, v0 (ix3 (0 : Fin 1) p h) * v2 (ix3 (0 : Fin 1) j h) := by
  unfold scores
  refine (matmul_plain_zero_apply (m := 256) (k := 1024) (n := 2048) none _ _ p j).trans ?_
  refine Finset.sum_congr rfl fun h _ => ?_
  rw [shapeCast_1ab_ab_apply, transpose_ix2_apply, shapeCast_1ab_ab_apply]

/-- The repeated row maximum at (p, j): the fold of max from -∞ over row p's 2048 entries. -/
theorem rowMax_apply (s : FVec Ideal S256x2048 .f32) (p : Fin 256) (j : Fin 2048) :
    rowMax s (ix2 p j)
      = (Finset.univ : Finset (Fin 2048)).fold max (Ideal.ofBits .f32 0xFF800000#32) (fun j' => s (ix2 p j')) := by
  unfold rowMax
  rw [Cert.LibColumnBroadcast.broadcastTo_a1_ab_apply, Cert.LibColumnCast.shapeCast_a_a1_apply]
  refine (Ideal.multiReduction_maximumf_single s _ reduces_S256x2048_S256 _ _ (ix1 p)).trans ?_
  have e : (s ∘ reduces_S256x2048_S256.lift (ix1 p)) = fun j' : Fin 2048 => s (ix2 p j') :=
    funext fun k => congrArg s (lift_row p k)
  rw [e]; rfl

/-- The repeated row sum at (p, j): the sum of row p's 2048 entries. -/
theorem rowSum_apply (e : FVec Ideal S256x2048 .f32) (p : Fin 256) (j : Fin 2048) :
    rowSum e (ix2 p j) = ∑ j' : Fin 2048, e (ix2 p j') := by
  unfold rowSum
  rw [Cert.LibColumnBroadcast.broadcastTo_a1_ab_apply, Cert.LibColumnCast.shapeCast_a_a1_apply]
  refine (Ideal.multiReduction_add_single e _ reduces_S256x2048_S256 _ _ (ix1 p)).trans ?_
  exact Finset.sum_congr rfl fun k _ => congrArg e (lift_row p k)

/-- If row p of a block of scores is row (b, r) of a score function, the exponentials are the specification's. -/
theorem shifted_apply (s : FVec Ideal S256x2048 .f32) (σ : Fin 4 → Fin 2048 → Fin 2048 → EReal) (b : Fin 4) (r : Fin 2048)
    (p : Fin 256) (hs : ∀ j : Fin 2048, s (ix2 p j) = σ b r j) (j : Fin 2048) :
    shifted s (ix2 p j) = Cert.Attention.lift σ b r j := by
  show Ideal.exp (s (ix2 p j) - rowMax s (ix2 p j)) = Ideal.exp (σ b r j - Cert.Attention.top σ b r)
  rw [rowMax_apply, hs j, (funext hs : (fun j' : Fin 2048 => s (ix2 p j')) = fun j' => σ b r j')]
  rfl

/-- … and the weights are the specification's softmax weights. -/
theorem weights_apply (s : FVec Ideal S256x2048 .f32) (σ : Fin 4 → Fin 2048 → Fin 2048 → EReal) (b : Fin 4) (r : Fin 2048)
    (p : Fin 256) (hs : ∀ j : Fin 2048, s (ix2 p j) = σ b r j) (j : Fin 2048) :
    weights s (ix2 p j) = Cert.Attention.weight σ b r j := by
  unfold weights Cert.Attention.weight Cert.Attention.mass
  rw [truncf_apply, divf_apply, rowSum_apply, shifted_apply s σ b r p hs j]
  exact congrArg (Ideal.div _) (Finset.sum_congr rfl fun j' _ => shifted_apply s σ b r p hs j')

/-! ## The stored value -/

/-- Entry (p, d) of the stored block is the specification's `attend` at the row of q that the block's row p holds. -/
theorem pay_attn (v0 : Vec Ideal S1x256x1024 .bf16) (v2 v4 : Vec Ideal S1x2048x1024 .bf16) (v22 : Vec Ideal S1024x1024 .bf16)
    (q k v : Fin 4 → Fin 2048 → Fin 1024 → EReal) (Wo : Cert.Attention.Mat) (b : Fin 4) (r : Fin 2048) (p : Fin 256)
    (hq : ∀ h : Fin 1024, v0 (ix3 (0 : Fin 1) p h) = q b r h)
    (hk : ∀ (j : Fin 2048) (h : Fin 1024), v2 (ix3 (0 : Fin 1) j h) = k b j h)
    (hv : ∀ (j : Fin 2048) (h : Fin 1024), v4 (ix3 (0 : Fin 1) j h) = v b j h)
    (hw : ∀ (h d : Fin 1024), v22 (ix2 h d) = Wo (ix2 h d)) (d : Fin 1024) :
    k1_pay1 (F := Ideal) v0 v2 v4 v22 (ix3 (0 : Fin 1) p d) = Cert.Attention.attend q k v Wo b r d := by
  have hs : ∀ j : Fin 2048, scores v0 v2 (ix2 p j) = Cert.Attention.score q k b r j := fun j => by
    rw [scores_apply]
    exact Finset.sum_congr rfl fun h _ => by rw [hq h, hk j h]
  rw [k1_pay1_eq, shapeCast_ab_1ab_apply]
  unfold Cert.Attention.attend
  refine (matmul_plain_zero_apply (m := 256) (k := 1024) (n := 1024) none _ _ p d).trans ?_
  refine Finset.sum_congr rfl fun h _ => ?_
  rw [shapeCast_self, hw h d, truncf_apply, mulf_apply, broadcast_apply]
  refine congrArg (· * Wo (ix2 h d)) (congrArg (· * Ideal.ofBits .f32 0x3D000000#32) ?_)
  unfold Cert.Attention.mix
  refine (matmul_plain_zero_apply (m := 256) (k := 2048) (n := 1024) none _ _ p h).trans ?_
  refine Finset.sum_congr rfl fun j _ => ?_
  rw [shapeCast_1ab_ab_apply, hv j h, weights_apply (scores v0 v2) (Cert.Attention.score q k) b r p hs j]

end Cert.KernelIdeal.Payload

end
-- ==== Proof.IdealPayload.lean ====
/-
  The two kernel bodies' stored values read at an entry, at the exact (extended-real) values: the projection body's
  three thirds (`pay_q`, `pay_k`, `pay_v`) and the attention body's block (`pay_attn`), each as the specification's
  function of the rows and matrices the body's loaded blocks hold.
-/
import proofs.«170138_j25941602468044_2_alg».proof.Proof.IdealPayloadProj
import proofs.«170138_j25941602468044_2_alg».proof.Proof.IdealPayloadAttn
-- ==== Proof.IdealAttnValue.lean ====
/-
  What the attention region leaves. Point t of its 4 × 8 grid is batch t / 8 and the 256 query rows starting at
  256·(t % 8); it is handed those rows of q, the whole of that batch's k and v, and the output matrix, and writes back
  that block of rows of the result. The thirty-two blocks tile the result array, so it ends holding one whole-array
  function of the region's entry contents: attention of the entry's q, k and v through the entry's output matrix.
  Stated for ANY entry contents with those four arrays.
-/
import proofs.«170138_j25941602468044_2_alg».proof.Proof.IdealAttnBody
import proofs.«170138_j25941602468044_2_alg».proof.Proof.AttnSpec
import proofs.«170138_j25941602468044_2_alg».proof.Proof.IdealPayload
import Idealize.ShloMosaic.Lib.Pipeline.Value
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3' : (![0, 0, 0] : Fin 3 → Nat) = fun _ => 0 := funext fun a => by fin_cases a <;> rfl
theorem hz2' : (![0, 0] : Fin 2 → Nat) = fun _ => 0 := funext fun a => by fin_cases a <;> rfl

/-- Attention of given q, k, v rows through an output matrix, as an array. -/
abbrev attnArr (q k v : Fin 4 → Fin 2048 → Fin 1024 → EReal) (Wo : Cert.Attention.Mat) : S4x2048x1024.Idx → EReal :=
  fun i => Cert.Attention.attend q k v Wo (i 0) (i 1) (i 2)

/-- The printed index maps over the 4 × 8 grid: point t is batch t / 8 and query block t % 8, for the rows of q and for the
    result; k and v move with the batch only; the output matrix's block never moves. -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 8 ∧ win1_4.index t (1 : Fin 3) = t.val % 8 ∧ win1_4.index t (2 : Fin 3) = 0 :=
  (by decide +kernel : ∀ t : Fin grid1.N, _)

/-! ## The thirty-two blocks tile the result array -/

/-- An index of the array is in point `t`'s block iff each coordinate is in the block's range on its axis. -/
theorem mem_blk_out (t : Fin cfg1.N) (i : S4x2048x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v4).slice (win1_4.rect t)).set ↔ _
  rw [View.set_slice_whole, Rect.mem_set_unit]
  exact Iff.rfl

/-- Every index of the array is in the block of the point (batch, row / 256). -/
theorem cover_out (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  let t : Fin cfg1.N := ⟨(i 0).val * 8 + (i 1).val / 256, by rw [show cfg1.N = 32 from N_1]; omega⟩
  obtain ⟨e00, e01, e02, e10, e11, e12, e20, e21, e22, e30, e31, e40, e41, e42⟩ := idx1 t
  have tv : t.val = (i 0).val * 8 + (i 1).val / 256 := rfl
  refine ⟨t, flush1_4 t, ?_⟩
  rw [mem_blk_out]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

section

-- ANY entry contents whose q, k, v arrays, on core `c`, and output matrix are the given functions
variable (V : (c : Dev nD) → (b : Ref sig .tc) → Buf (Elt Ideal) ((c : Thread nD τ).loc b))
variable (c : Dev nD) (q k v : Fin 4 → Fin 2048 → Fin 1024 → EReal) (Wo : Cert.Attention.Mat)
variable (hq : ∀ (b : Fin 4) (r : Fin 2048) (h : Fin 1024), V c main_v3_0 (ix3 b r h) = q b r h)
variable (hk : ∀ (b : Fin 4) (r : Fin 2048) (h : Fin 1024), V c main_v3_1 (ix3 b r h) = k b r h)
variable (hv : ∀ (b : Fin 4) (r : Fin 2048) (h : Fin 1024), V c main_v3_2 (ix3 b r h) = v b r h)
variable (hw : ∀ (h d : Fin 1024), V c main_v2 (ix2 h d) = Wo (ix2 h d))
include hq hk hv hw

/-- WHAT POINT `t` WRITES BACK is its block of the attention array. -/
theorem flushed_out (t : Fin cfg1.N) :
    (dat1 V c).flushed 4 t = ((cfg1.win 4).blk t).view.read (Elt Ideal) (attnArr q k v Wo) := by
  show (cfg1.win 4).cut (grid1.coords t) ((dat1 V c).after 4 t) = _
  rw [after1_4]
  unfold out1_4
  rw [View.canon_unit_zero hz3']
  simp only [View.ld_unit_zero (S := S1x256x1024) hz3', View.ld_unit_zero (S := S1x2048x1024) hz3', View.ld_unit_zero (S := S1024x1024) hz2']
  obtain ⟨e00, e01, e02, e10, e11, e12, e20, e21, e22, e30, e31, e40, e41, e42⟩ := idx1 t
  have ht : t.val < 32 := lt_of_lt_of_eq t.isLt N_1
  funext j
  obtain ⟨u, p, d, rfl⟩ : ∃ (u : Fin 1) (p : Fin 256) (d : Fin 1024), j = ix3 u p d := ⟨j 0, j 1, j 2, eq_ix3 j⟩
  obtain rfl : u = 0 := Subsingleton.elim _ _
  refine (Cert.KernelIdeal.Payload.pay_attn _ _ _ _ q k v Wo (⟨t.val / 8, by omega⟩ : Fin 4) (⟨t.val % 8 * 256 + p.val, by omega⟩ : Fin 2048) p ?_ ?_ ?_ ?_ d).trans ?_
  · intro h
    show V c main_v3_0 (((cfg1.win 0).blk t).view.emb (ix3 (0 : Fin 1) p h)) = q _ _ h
    rw [← hq]
    refine congrArg (V c main_v3_0) ?_
    funext ax; apply Fin.ext
    match ax with
    | ⟨0, _⟩ => show win1_0.index t (0 : Fin 3) * 1 + 1 * 0 = t.val / 8; omega
    | ⟨1, _⟩ => show win1_0.index t (1 : Fin 3) * 256 + 1 * p.val = t.val % 8 * 256 + p.val; omega
    | ⟨2, _⟩ => show win1_0.index t (2 : Fin 3) * 1024 + 1 * h.val = h.val; omega
  · intro r h
    show V c main_v3_1 (((cfg1.win 1).blk t).view.emb (ix3 (0 : Fin 1) r h)) = k _ r h
    rw [← hk]
    refine congrArg (V c main_v3_1) ?_
    funext ax; apply Fin.ext
    match ax with
    | ⟨0, _⟩ => show win1_1.index t (0 : Fin 3) * 1 + 1 * 0 = t.val / 8; omega
    | ⟨1, _⟩ => show win1_1.index t (1 : Fin 3) * 2048 + 1 * r.val = r.val; omega
    | ⟨2, _⟩ => show win1_1.index t (2 : Fin 3) * 1024 + 1 * h.val = h.val; omega
  · intro r h
    show V c main_v3_2 (((cfg1.win 2).blk t).view.emb (ix3 (0 : Fin 1) r h)) = v _ r h
    rw [← hv]
    refine congrArg (V c main_v3_2) ?_
    funext ax; apply Fin.ext
    match ax with
    | ⟨0, _⟩ => show win1_2.index t (0 : Fin 3) * 1 + 1 * 0 = t.val / 8; omega
    | ⟨1, _⟩ => show win1_2.index t (1 : Fin 3) * 2048 + 1 * r.val = r.val; omega
    | ⟨2, _⟩ => show win1_2.index t (2 : Fin 3) * 1024 + 1 * h.val = h.val; omega
  · intro h g
    show V c main_v2 (((cfg1.win 3).blk t).view.emb (ix2 h g)) = Wo (ix2 h g)
    rw [← hw]
    refine congrArg (V c main_v2) ?_
    funext ax; apply Fin.ext
    match ax with
    | ⟨0, _⟩ => show win1_3.index t (0 : Fin 2) * 1024 + 1 * h.val = h.val; omega
    | ⟨1, _⟩ => show win1_3.index t (1 : Fin 2) * 1024 + 1 * g.val = g.val; omega
  · show attnArr q k v Wo (ix3 (⟨t.val / 8, by omega⟩ : Fin 4) (⟨t.val % 8 * 256 + p.val, by omega⟩ : Fin 2048) d) = attnArr q k v Wo (((cfg1.win 4).blk t).view.emb (ix3 (0 : Fin 1) p d))
    refine congrArg (attnArr q k v Wo) ?_
    funext ax; apply Fin.ext
    match ax with
    | ⟨0, _⟩ => show t.val / 8 = win1_4.index t (0 : Fin 3) * 1 + 1 * 0; omega
    | ⟨1, _⟩ => show t.val % 8 * 256 + p.val = win1_4.index t (1 : Fin 3) * 256 + 1 * p.val; omega
    | ⟨2, _⟩ => show d.val = win1_4.index t (2 : Fin 3) * 1024 + 1 * d.val; omega

/-- THE RESULT ARRAY after the region: attention of the entry's q, k, v through the entry's output matrix. -/
theorem final_out : (dat1 V c).arrAt 4 cfg1.N = attnArr q k v Wo :=
  (dat1 V c).arrAt_eq_of_cover 4 (attnArr q k v Wo) (fun t _ => flushed_out V c q k v Wo hq hk hv hw t) cover_out

end

end Cert.KernelIdeal.Hand

end
-- ==== Proof.IdealResult.lean ====
/-
  The idealized kernel's result, as one function of its five launch arrays. The attention region is entered with the
  projection region's three written-back arrays — the projections of the rows of x by Wq, Wk and Wv — and with the
  output matrix as the host operations left it, which is Wo; so what its thirty-two points write back, the result
  array, is attention of those projections through Wo: the specification's function of the five arguments.
-/
import proofs.«170138_j25941602468044_2_alg».proof.Proof.IdealEntry
import proofs.«170138_j25941602468044_2_alg».proof.Proof.IdealQkvValue
import proofs.«170138_j25941602468044_2_alg».proof.Proof.IdealAttnValue

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The attention region finds, as its q array, the projection of the rows of x by Wq. -/
theorem E2_q (c : Dev nD) (b : Fin 4) (r : Fin 2048) (h : Fin 1024) :
    E2 m ρ c main_v3_0 (ix3 b r h) = Cert.Attention.proj (m ((c : Thread nD τ).loc main_arg0)) (m ((c : Thread nD τ).loc main_arg1)) b r h := by
  have e : E2 m ρ c main_v3_0 = (dat0 (E1 m ρ) c).arrAt 2 cfg0.N := (hF0 m ρ c 2).symm
  rw [e, final_q (E1 m ρ) c (m ((c : Thread nD τ).loc main_arg0)) (m ((c : Thread nD τ).loc main_arg1)) (m ((c : Thread nD τ).loc main_arg2)) (m ((c : Thread nD τ).loc main_arg3)) (E1_rows m ρ c) (E1_packed_q m ρ c) (E1_packed_k m ρ c) (E1_packed_v m ρ c)]

/-- As its k array, the projection by Wk. -/
theorem E2_k (c : Dev nD) (b : Fin 4) (r : Fin 2048) (h : Fin 1024) :
    E2 m ρ c main_v3_1 (ix3 b r h) = Cert.Attention.proj (m ((c : Thread nD τ).loc main_arg0)) (m ((c : Thread nD τ).loc main_arg2)) b r h := by
  have e : E2 m ρ c main_v3_1 = (dat0 (E1 m ρ) c).arrAt 3 cfg0.N := (hF0 m ρ c 3).symm
  rw [e, final_k (E1 m ρ) c (m ((c : Thread nD τ).loc main_arg0)) (m ((c : Thread nD τ).loc main_arg1)) (m ((c : Thread nD τ).loc main_arg2)) (m ((c : Thread nD τ).loc main_arg3)) (E1_rows m ρ c) (E1_packed_q m ρ c) (E1_packed_k m ρ c) (E1_packed_v m ρ c)]

/-- As its v array, the projection by Wv. -/
theorem E2_v (c : Dev nD) (b : Fin 4) (r : Fin 2048) (h : Fin 1024) :
    E2 m ρ c main_v3_2 (ix3 b r h) = Cert.Attention.proj (m ((c : Thread nD τ).loc main_arg0)) (m ((c : Thread nD τ).loc main_arg3)) b r h := by
  have e : E2 m ρ c main_v3_2 = (dat0 (E1 m ρ) c).arrAt 4 cfg0.N := (hF0 m ρ c 4).symm
  rw [e, final_v (E1 m ρ) c (m ((c : Thread nD τ).loc main_arg0)) (m ((c : Thread nD τ).loc main_arg1)) (m ((c : Thread nD τ).loc main_arg2)) (m ((c : Thread nD τ).loc main_arg3)) (E1_rows m ρ c) (E1_packed_q m ρ c) (E1_packed_k m ρ c) (E1_packed_v m ρ c)]

/-- The projection region does not touch the packed output matrix, which is Wo. -/
theorem E2_w (c : Dev nD) (h d : Fin 1024) : E2 m ρ c main_v2 (ix2 h d) = (m ((c : Thread nD τ).loc main_arg4)) (ix2 h d) := by
  have e : E2 m ρ c main_v2 = E1 m ρ c main_v2 := B2_of_ne m ρ c main_v2 (by decide)
  rw [e]
  exact E1_outw_apply m ρ c _

/-- THE RESULT ARRAY after the run is the specification's function of the five launch arrays. -/
theorem result_eq (c : Dev nD) :
    (dat1 (E2 m ρ) c).arrAt 4 cfg1.N = Cert.Attention.G (m ((c : Thread nD τ).loc main_arg0)) (m ((c : Thread nD τ).loc main_arg1)) (m ((c : Thread nD τ).loc main_arg2)) (m ((c : Thread nD τ).loc main_arg3)) (m ((c : Thread nD τ).loc main_arg4)) := by
  rw [final_out (E2 m ρ) c (Cert.Attention.proj (m ((c : Thread nD τ).loc main_arg0)) (m ((c : Thread nD τ).loc main_arg1))) (Cert.Attention.proj (m ((c : Thread nD τ).loc main_arg0)) (m ((c : Thread nD τ).loc main_arg2))) (Cert.Attention.proj (m ((c : Thread nD τ).loc main_arg0)) (m ((c : Thread nD τ).loc main_arg3))) (m ((c : Thread nD τ).loc main_arg4))
    (E2_q m ρ c) (E2_k m ρ c) (E2_v m ρ c) (E2_w m ρ c)]
  rfl

end Cert.KernelIdeal.Hand

end
-- ==== Proof.RefStages.lean ====
/-
  The reference's stages, read one index at a time, and identified with the attention specification: each stage of the
  reference program, read at explicit coordinates, is the specification's function of the same name.
-/
import proofs.«170138_j25941602468044_2_alg».proof.Proof.Gen.ReferenceIdeal.Read
import proofs.«170138_j25941602468044_2_alg».proof.Proof.AttnSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attention

/-! ## Index equations: the read-back's composed indices at explicit coordinates -/

theorem lidx_v0 (b : Fin 4) (r : Fin 2048) (d k : Fin 1024) : lidx_main_v0 (ix3 b r d) k = ix3 b r k :=
  funext fun a => Fin.ext (by match a with | ⟨0, _⟩ => rfl | ⟨1, _⟩ => rfl | ⟨2, _⟩ => rfl)
theorem ridx_v0 (b : Fin 4) (r : Fin 2048) (d k : Fin 1024) : ridx_main_v0 (ix3 b r d) k = ix2 k d :=
  funext fun a => Fin.ext (by match a with | ⟨0, _⟩ => rfl | ⟨1, _⟩ => rfl)
theorem lidx_v1 (b : Fin 4) (r : Fin 2048) (d k : Fin 1024) : lidx_main_v1 (ix3 b r d) k = ix3 b r k :=
  funext fun a => Fin.ext (by match a with | ⟨0, _⟩ => rfl | ⟨1, _⟩ => rfl | ⟨2, _⟩ => rfl)
theorem ridx_v1 (b : Fin 4) (r : Fin 2048) (d k : Fin 1024) : ridx_main_v1 (ix3 b r d) k = ix2 k d :=
  funext fun a => Fin.ext (by match a with | ⟨0, _⟩ => rfl | ⟨1, _⟩ => rfl)
theorem lidx_v2 (b : Fin 4) (r : Fin 2048) (d k : Fin 1024) : lidx_main_v2 (ix3 b r d) k = ix3 b r k :=
  funext fun a => Fin.ext (by match a with | ⟨0, _⟩ => rfl | ⟨1, _⟩ => rfl | ⟨2, _⟩ => rfl)
theorem ridx_v2 (b : Fin 4) (r : Fin 2048) (d k : Fin 1024) : ridx_main_v2 (ix3 b r d) k = ix2 k d :=
  funext fun a => Fin.ext (by match a with | ⟨0, _⟩ => rfl | ⟨1, _⟩ => rfl)
theorem lidx_v3 (b : Fin 4) (i j : Fin 2048) (k : Fin 1024) : lidx_main_v3 (ix3 b i j) k = ix3 b i k :=
  funext fun a => Fin.ext (by match a with | ⟨0, _⟩ => rfl | ⟨1, _⟩ => rfl | ⟨2, _⟩ => rfl)
theorem ridx_v3 (b : Fin 4) (i j : Fin 2048) (k : Fin 1024) : ridx_main_v3 (ix3 b i j) k = ix3 b j k :=
  funext fun a => Fin.ext (by match a with | ⟨0, _⟩ => rfl | ⟨1, _⟩ => rfl | ⟨2, _⟩ => rfl)
theorem idx_v7 (b : Fin 4) (i : Fin 2048) (z : Fin 1) : idx_main_v7 (ix3 b i z) = ix2 b i :=
  funext fun a => Fin.ext (by match a with | ⟨0, _⟩ => rfl | ⟨1, _⟩ => rfl)
theorem idx_v8 (b : Fin 4) (i j : Fin 2048) : idx_main_v8 (ix3 b i j) = ix3 b i (0 : Fin 1) :=
  funext fun a => Fin.ext (by match a with | ⟨0, _⟩ => rfl | ⟨1, _⟩ => rfl | ⟨2, _⟩ => rfl)
theorem idx_v11 (b : Fin 4) (i k : Fin 2048) : idx_main_v11 (ix2 b i) k = ix3 b i k :=
  funext fun a => Fin.ext (by match a with | ⟨0, _⟩ => rfl | ⟨1, _⟩ => rfl | ⟨2, _⟩ => rfl)
theorem idx_v12 (b : Fin 4) (i : Fin 2048) (z : Fin 1) : idx_main_v12 (ix3 b i z) = ix2 b i :=
  funext fun a => Fin.ext (by match a with | ⟨0, _⟩ => rfl | ⟨1, _⟩ => rfl)
theorem idx_v13 (b : Fin 4) (i j : Fin 2048) : idx_main_v13 (ix3 b i j) = ix3 b i (0 : Fin 1) :=
  funext fun a => Fin.ext (by match a with | ⟨0, _⟩ => rfl | ⟨1, _⟩ => rfl | ⟨2, _⟩ => rfl)
theorem lidx_v15 (b : Fin 4) (i : Fin 2048) (h : Fin 1024) (k : Fin 2048) : lidx_main_v15 (ix3 b i h) k = ix3 b i k :=
  funext fun a => Fin.ext (by match a with | ⟨0, _⟩ => rfl | ⟨1, _⟩ => rfl | ⟨2, _⟩ => rfl)
theorem ridx_v15 (b : Fin 4) (i : Fin 2048) (h : Fin 1024) (k : Fin 2048) : ridx_main_v15 (ix3 b i h) k = ix3 b k h :=
  funext fun a => Fin.ext (by match a with | ⟨0, _⟩ => rfl | ⟨1, _⟩ => rfl | ⟨2, _⟩ => rfl)
theorem lidx_v18 (b : Fin 4) (i : Fin 2048) (d k : Fin 1024) : lidx_main_v18 (ix3 b i d) k = ix3 b i k :=
  funext fun a => Fin.ext (by match a with | ⟨0, _⟩ => rfl | ⟨1, _⟩ => rfl | ⟨2, _⟩ => rfl)
theorem ridx_v18 (b : Fin 4) (i : Fin 2048) (d k : Fin 1024) : ridx_main_v18 (ix3 b i d) k = ix2 k d :=
  funext fun a => Fin.ext (by match a with | ⟨0, _⟩ => rfl | ⟨1, _⟩ => rfl)

/-- Row (b, i) of the reduced array with column k put back is (b, i, k). -/
theorem lift_row (h : S4x2048x2048.Reduces [2] S4x2048) (b : Fin 4) (i : Fin 2048) (k : Fin (S4x2048x2048.size 2)) :
    h.lift (ix2 b i) k = ix3 b i (⟨k.val, k.isLt⟩ : Fin 2048) :=
  funext fun a => Fin.ext (by match a with | ⟨0, _⟩ => rfl | ⟨1, _⟩ => rfl | ⟨2, _⟩ => rfl)

/-! ## The three projections -/

theorem v0_at (x0 : (⟨S4x2048x1024, .f32⟩ : BufTy).Contents (Elt Ideal)) (x1 : (⟨S1024x1024, .f32⟩ : BufTy).Contents (Elt Ideal)) (b : Fin 4) (r : Fin 2048) (h : Fin 1024) :
    val_main_v0 (F := Ideal) x0 x1 (ix3 b r h) = proj x0 x1 b r h := by
  rw [val_main_v0_apply]
  unfold proj
  refine Finset.sum_congr rfl fun c _ => ?_
  rw [lidx_v0, ridx_v0]

theorem v1_at (x0 : (⟨S4x2048x1024, .f32⟩ : BufTy).Contents (Elt Ideal)) (x2 : (⟨S1024x1024, .f32⟩ : BufTy).Contents (Elt Ideal)) (b : Fin 4) (r : Fin 2048) (h : Fin 1024) :
    val_main_v1 (F := Ideal) x0 x2 (ix3 b r h) = proj x0 x2 b r h := by
  rw [val_main_v1_apply]
  unfold proj
  refine Finset.sum_congr rfl fun c _ => ?_
  rw [lidx_v1, ridx_v1]

theorem v2_at (x0 : (⟨S4x2048x1024, .f32⟩ : BufTy).Contents (Elt Ideal)) (x3 : (⟨S1024x1024, .f32⟩ : BufTy).Contents (Elt Ideal)) (b : Fin 4) (r : Fin 2048) (h : Fin 1024) :
    val_main_v2 (F := Ideal) x0 x3 (ix3 b r h) = proj x0 x3 b r h := by
  rw [val_main_v2_apply]
  unfold proj
  refine Finset.sum_congr rfl fun c _ => ?_
  rw [lidx_v2, ridx_v2]

/-! ## The scores -/

theorem v3_at (x0 : (⟨S4x2048x1024, .f32⟩ : BufTy).Contents (Elt Ideal)) (x1 x2 : (⟨S1024x1024, .f32⟩ : BufTy).Contents (Elt Ideal)) (b : Fin 4) (i j : Fin 2048) :
    val_main_v3 (F := Ideal) x0 x1 x2 (ix3 b i j) = score (proj x0 x1) (proj x0 x2) b i j := by
  rw [val_main_v3_apply]
  unfold score
  refine Finset.sum_congr rfl fun h _ => ?_
  rw [lidx_v3, ridx_v3, v0_at, v1_at]

/-! ## The row maximum -/

/-- The host's max-reduce over the columns from -∞ is the fold of max from -∞ over the row's scores. -/
theorem v4_at (x0 : (⟨S4x2048x1024, .f32⟩ : BufTy).Contents (Elt Ideal)) (x1 x2 : (⟨S1024x1024, .f32⟩ : BufTy).Contents (Elt Ideal)) (b : Fin 4) (i : Fin 2048) :
    val_main_v4 (F := Ideal) x0 x1 x2 (ix2 b i) = top (score (proj x0 x1) (proj x0 x2)) b i := by
  have hr : S4x2048x2048.Reduces [2] S4x2048 := by decide
  unfold val_main_v4
  rw [Host.reduce_eq_fold_single FloatOps.maximumf _ _ _ hr]
  unfold top
  have hf : (val_main_v3 (F := Ideal) x0 x1 x2 ∘ hr.lift (ix2 b i))
      = fun j : Fin 2048 => score (proj x0 x1) (proj x0 x2) b i j :=
    funext fun k => (congrArg (val_main_v3 (F := Ideal) x0 x1 x2) (lift_row hr b i k)).trans (v3_at x0 x1 x2 b i _)
  exact congrArg (fun f => Finset.fold max (Ideal.ofBits .f32 0xFF800000#32) f (Finset.univ : Finset (Fin 2048))) hf

/-- Taking the maximum with -∞ once more changes nothing. -/
theorem v6_at (x0 : (⟨S4x2048x1024, .f32⟩ : BufTy).Contents (Elt Ideal)) (x1 x2 : (⟨S1024x1024, .f32⟩ : BufTy).Contents (Elt Ideal)) (b : Fin 4) (i : Fin 2048) :
    val_main_v6 (F := Ideal) x0 x1 x2 (ix2 b i) = top (score (proj x0 x1) (proj x0 x2)) b i := by
  rw [val_main_v6_apply, val_main_v5_apply, val_main_cst_0_apply, v4_at, Ideal.maximumf_def, Ideal.ofBits_def]
  unfold top
  exact max_fold_max _ _ _

theorem v8_at (x0 : (⟨S4x2048x1024, .f32⟩ : BufTy).Contents (Elt Ideal)) (x1 x2 : (⟨S1024x1024, .f32⟩ : BufTy).Contents (Elt Ideal)) (b : Fin 4) (i j : Fin 2048) :
    val_main_v8 (F := Ideal) x0 x1 x2 (ix3 b i j) = top (score (proj x0 x1) (proj x0 x2)) b i := by
  rw [val_main_v8_apply, idx_v8, val_main_v7_apply, idx_v7, v6_at]

/-! ## The exponentials, their row sum, and the weights -/

theorem v10_at (x0 : (⟨S4x2048x1024, .f32⟩ : BufTy).Contents (Elt Ideal)) (x1 x2 : (⟨S1024x1024, .f32⟩ : BufTy).Contents (Elt Ideal)) (b : Fin 4) (i j : Fin 2048) :
    val_main_v10 (F := Ideal) x0 x1 x2 (ix3 b i j) = lift (score (proj x0 x1) (proj x0 x2)) b i j := by
  rw [val_main_v10_apply, val_main_v9_apply, v3_at, v8_at, Ideal.hostUnary_exp_def, Ideal.subf_def]
  rfl

theorem v11_at (x0 : (⟨S4x2048x1024, .f32⟩ : BufTy).Contents (Elt Ideal)) (x1 x2 : (⟨S1024x1024, .f32⟩ : BufTy).Contents (Elt Ideal)) (b : Fin 4) (i : Fin 2048) :
    val_main_v11 (F := Ideal) x0 x1 x2 (ix2 b i) = mass (score (proj x0 x1) (proj x0 x2)) b i := by
  rw [val_main_v11_apply, val_main_cst_1_apply, Ideal.ofBits_def, Ideal.ofBits_zero_f32, zero_add]
  unfold mass
  refine Finset.sum_congr rfl fun j _ => ?_
  rw [idx_v11, v10_at]

theorem v13_at (x0 : (⟨S4x2048x1024, .f32⟩ : BufTy).Contents (Elt Ideal)) (x1 x2 : (⟨S1024x1024, .f32⟩ : BufTy).Contents (Elt Ideal)) (b : Fin 4) (i j : Fin 2048) :
    val_main_v13 (F := Ideal) x0 x1 x2 (ix3 b i j) = mass (score (proj x0 x1) (proj x0 x2)) b i := by
  rw [val_main_v13_apply, idx_v13, val_main_v12_apply, idx_v12, v11_at]

theorem v14_at (x0 : (⟨S4x2048x1024, .f32⟩ : BufTy).Contents (Elt Ideal)) (x1 x2 : (⟨S1024x1024, .f32⟩ : BufTy).Contents (Elt Ideal)) (b : Fin 4) (i j : Fin 2048) :
    val_main_v14 (F := Ideal) x0 x1 x2 (ix3 b i j) = weight (score (proj x0 x1) (proj x0 x2)) b i j := by
  rw [val_main_v14_apply, v10_at, v13_at, Ideal.hostDivf_def]
  rfl

/-! ## The mix of the value rows, the scale, and the output projection -/

theorem v15_at (x0 : (⟨S4x2048x1024, .f32⟩ : BufTy).Contents (Elt Ideal)) (x1 x2 x3 : (⟨S1024x1024, .f32⟩ : BufTy).Contents (Elt Ideal)) (b : Fin 4) (i : Fin 2048) (h : Fin 1024) :
    val_main_v15 (F := Ideal) x0 x1 x2 x3 (ix3 b i h)
      = mix (weight (score (proj x0 x1) (proj x0 x2))) (proj x0 x3) b i h := by
  rw [val_main_v15_apply]
  unfold mix
  refine Finset.sum_congr rfl fun j _ => ?_
  rw [lidx_v15, ridx_v15, v14_at, v2_at]

theorem v17_at (x0 : (⟨S4x2048x1024, .f32⟩ : BufTy).Contents (Elt Ideal)) (x1 x2 x3 : (⟨S1024x1024, .f32⟩ : BufTy).Contents (Elt Ideal)) (b : Fin 4) (i : Fin 2048) (h : Fin 1024) :
    val_main_v17 (F := Ideal) x0 x1 x2 x3 (ix3 b i h)
      = mix (weight (score (proj x0 x1) (proj x0 x2))) (proj x0 x3) b i h * Ideal.ofBits .f32 0x3D000000#32 := by
  rw [val_main_v17_apply, val_main_v16_apply, val_main_cst_2_apply, v15_at, Ideal.mulf_def, Ideal.ofBits_def]

theorem v18_at (x0 : (⟨S4x2048x1024, .f32⟩ : BufTy).Contents (Elt Ideal)) (x1 x2 x3 x4 : (⟨S1024x1024, .f32⟩ : BufTy).Contents (Elt Ideal)) (b : Fin 4) (i : Fin 2048) (d : Fin 1024) :
    val_main_v18 (F := Ideal) x0 x1 x2 x3 x4 (ix3 b i d) = out x0 x1 x2 x3 x4 b i d := by
  rw [val_main_v18_apply]
  unfold out attend
  refine Finset.sum_congr rfl fun h _ => ?_
  rw [lidx_v18, ridx_v18, v17_at]

/-! ## The reference is the specification -/

theorem ref_is_spec (x0 : (⟨S4x2048x1024, .f32⟩ : BufTy).Contents (Elt Ideal)) (x1 x2 x3 x4 : (⟨S1024x1024, .f32⟩ : BufTy).Contents (Elt Ideal)) :
    Cert.ReferenceIdeal.Read.val_main_v18 (F := Ideal) x0 x1 x2 x3 x4 = Cert.Attention.G x0 x1 x2 x3 x4 := by
  funext y
  obtain ⟨b, i, d, rfl⟩ : ∃ (b : Fin 4) (i : Fin 2048) (d : Fin 1024), y = ix3 b i d := ⟨y 0, y 1, y 2, eq_ix3 y⟩
  rw [v18_at, G_apply]

end Cert.ReferenceIdeal.RefValue

end
-- ==== Proof.lean ====
/-
  The certificate of `Cert.Claim`: a two-region attention kernel against its plain reference.

  Frames. Each kernel program runs as three segments — three packed weight conversions on the host, the projection
  region (sixteen grid points, each a 512-row block of x times the packed matrix [Wq | Wk | Wv], its column thirds
  stored as rows of q, k, v), the attention region (thirty-two grid points, each 256 query rows of one batch against
  all of that batch's keys and values) — and every weakly fair execution ends, faulting nowhere, with the five
  argument arrays as launched: no host operation writes an argument and a region changes only its output arrays. The
  reference is a straight line of host operations; its frame is its run with the result dropped.

  Values, at the exact reading (every float an extended real, every operation the textbook one, a change of format
  the identity). Both programs compute, for every batch b, row i and output feature d,
      Σ_h ((Σ_j w[b,i,j] · v[b,j,h]) · 1/32) · Wo[h,d],   w = exp(s - max_j s) / Σ_j exp(s - max_j s),   s = q·kᵀ,
  with q, k, v the projections of x by Wq, Wk, Wv — in the same arrangement of sums, so the two results are equal
  entry by entry by the definitions alone: no law that needs finiteness is used, and the precondition is not opened.
  The idealization rewrote nothing, so its statement is `True`.
-/
import proofs.«170138_j25941602468044_2_alg».proof.Defs
import proofs.«170138_j25941602468044_2_alg».proof.Proof.Gen.Kernel
import proofs.«170138_j25941602468044_2_alg».proof.Proof.Gen.KernelIdeal
import proofs.«170138_j25941602468044_2_alg».proof.Proof.Gen.ReferenceIdeal
import proofs.«170138_j25941602468044_2_alg».proof.Proof.Gen.Pre_finite_inputs
import proofs.«170138_j25941602468044_2_alg».proof.Proof.Gen.ReferenceIdeal.Run
import proofs.«170138_j25941602468044_2_alg».proof.Proof.BitsRun
import proofs.«170138_j25941602468044_2_alg».proof.Proof.IdealResult
import proofs.«170138_j25941602468044_2_alg».proof.Proof.RefStages

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, the idealized kernel's result array and the reference's both end at
    the attention function of those arguments. -/
theorem algebraic : Cert.algebraic_KernelIdeal_ReferenceIdeal := by
  intro m ρ m' ρ' _ hagree
  refine ⟨fun c => Cert.Attention.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v18_eq _ _ _ _ _).trans
      ((Cert.ReferenceIdeal.RefValue.ref_is_spec _ _ _ _ _).trans ?_))
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
